-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x2048x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x2048x8 : Shape := ⟨3, ![8, 2048, 8]⟩
abbrev S1x8 : Shape := ⟨2, ![1, 8]⟩
abbrev S8x2048 : Shape := ⟨2, ![8, 2048]⟩
abbrev S2048x512 : Shape := ⟨2, ![2048, 512]⟩
abbrev S1x2048 : Shape := ⟨2, ![1, 2048]⟩
abbrev S1x512 : Shape := ⟨2, ![1, 512]⟩
abbrev S1x1024x8 : Shape := ⟨3, ![1, 1024, 8]⟩
abbrev S1x1024x512 : Shape := ⟨3, ![1, 1024, 512]⟩
abbrev S1024x512 : Shape := ⟨2, ![1024, 512]⟩
abbrev S1024x8 : Shape := ⟨2, ![1024, 8]⟩
abbrev S8x1024 : Shape := ⟨2, ![8, 1024]⟩
abbrev S1x1024 : Shape := ⟨2, ![1, 1024]⟩
abbrev S1024x1024 : Shape := ⟨2, ![1024, 1024]⟩

abbrev nBuf : Space → Nat
  | .hbm => 18
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x2048x8, .f32⟩
  | .hbm, ⟨7, _⟩ => ⟨S8, .f32⟩
  | .hbm, ⟨8, _⟩ => ⟨S1x8, .f32⟩
  | .hbm, ⟨9, _⟩ => ⟨S2048x8, .f32⟩
  | .hbm, ⟨10, _⟩ => ⟨S2048x8, .f32⟩
  | .hbm, ⟨11, _⟩ => ⟨S8x2048, .f32⟩
  | .hbm, ⟨12, _⟩ => ⟨S8x2048, .bf16⟩
  | .hbm, ⟨13, _⟩ => ⟨S2048x512, .f32⟩
  | .hbm, ⟨14, _⟩ => ⟨S2048x512, .bf16⟩
  | .hbm, ⟨15, _⟩ => ⟨S1x2048, .f32⟩
  | .hbm, ⟨16, _⟩ => ⟨S1x512, .f32⟩
  | .hbm, ⟨17, _⟩ => ⟨S8x2048x512, .f32⟩
  | .local _ .vmem, ⟨0, _⟩ => ⟨S1x1024x8, .f32⟩
  | .local _ .vmem, ⟨1, _⟩ => ⟨S1x1024x8, .f32⟩
  | .local _ .vmem, ⟨2, _⟩ => ⟨S8x2048, .bf16⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8x2048x512_S8x2048x8_0_0_0 : S8x2048x512.Slices ![0, 0, 0] S8x2048x8
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  shapeCasts_S2048_S1x2048 : S2048.ShapeCasts S1x2048
  shapeCasts_S512_S1x512 : S512.ShapeCasts S1x512
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S8x2048_S8x1024_0_0 : ∀ a, (![0, 0] : Fin 2 → Nat) a + S8x1024.size a ≤ S8x2048.size a
  h_S8x1024 : 0 < S8x1024.numel
  shapeCasts_S8x1024_S8x1024 : S8x1024.ShapeCasts S8x1024
  inb_S1x2048_S1x1024_0_0 : ∀ a, (![0, 0] : Fin 2 → Nat) a + S1x1024.size a ≤ S1x2048.size a
  h_S1x1024 : 0 < S1x1024.numel
  shapeCasts_S1x1024_S1x1024 : S1x1024.ShapeCasts S1x1024
  broadcasts_S1x1024_S1024x1024 : S1x1024.Broadcasts S1024x1024
  inb_S2048x512_S1024x512_0_0 : ∀ a, (![0, 0] : Fin 2 → Nat) a + S1024x512.size a ≤ S2048x512.size a
  inb_S8x2048_S8x1024_0_1024 : ∀ a, (![0, 1024] : Fin 2 → Nat) a + S8x1024.size a ≤ S8x2048.size a
  inb_S1x2048_S1x1024_0_1024 : ∀ a, (![0, 1024] : Fin 2 → Nat) a + S1x1024.size a ≤ S1x2048.size a
  inb_S2048x512_S1024x512_1024_0 : ∀ a, (![1024, 0] : Fin 2 → Nat) a + S1024x512.size a ≤ S2048x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x8_S8x1024_S1024x1024_1_0_0_1_n_n_wf : DotDims.WF S1024x8 S8x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x8.size a ≤ S8x2048x8.size a
  hwx0_0 : ∀ i : grid0.Coords, EltTy.bits .f32 = 32 ∨ (Rect.block (s := S8x2048x8) S1x1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .bf16 = 32 ∨ (Rect.block (s := S8x2048) S8x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x2048x512.size a
  hwx0_5 : ∀ i : grid0.Coords, EltTy.bits .f32 = 32 ∨ (Rect.block (s := S8x2048x512) S1x1024x512.size (cc0_transform_5 i) (hinb0_5 i)).WholeWords (EltTy.packing .f32)

variable [Facts₀]

def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1x1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x2048x8 : Shape := ⟨3, ![8, 2048, 8]⟩
abbrev S1x1x8 : Shape := ⟨3, ![1, 1, 8]⟩
abbrev S8x2048x2048 : Shape := ⟨3, ![8, 2048, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x2048x8, .f32⟩
  | .hbm, ⟨7, _⟩ => ⟨S8x2048x8, .f32⟩
  | .hbm, ⟨8, _⟩ => ⟨S8, .f32⟩
  | .hbm, ⟨9, _⟩ => ⟨S1x1x8, .f32⟩
  | .hbm, ⟨10, _⟩ => ⟨S8x2048x8, .f32⟩
  | .hbm, ⟨11, _⟩ => ⟨S8x2048x8, .f32⟩
  | .hbm, ⟨12, _⟩ => ⟨S8x2048x2048, .f32⟩
  | .hbm, ⟨13, _⟩ => ⟨S1x1x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x512, .f32⟩
  | .hbm, ⟨20, _⟩ => ⟨S1x1x512, .f32⟩
  | .hbm, ⟨21, _⟩ => ⟨S8x2048x512, .f32⟩
  | .hbm, ⟨22, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x512_S8x2048x8_0_0_0 : S8x2048x512.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x8_S2048x8_S8x2048x2048_2_1_01_0_n_n_wf : DotDims.WF S8x2048x8 S2048x8 S8x2048x2048 [2] [1] [0, 1] [0] [] []
  dot_S8x2048x2048_S512x2048_S8x2048x512_2_1_01_0_n_n_wf : DotDims.WF S8x2048x2048 S512x2048 S8x2048x512 [2] [1] [0, 1] [0] [] []

variable [Facts₀]

def dot_S8x2048x8_S2048x8_S8x2048x2048_2_1_01_0_n_n : DotDims S8x2048x8 S2048x8 S8x2048x2048 where
  lhsContracting := [2]
  rhsContracting := [1]
  lhsNonContracting := [0, 1]
  rhsNonContracting := [0]
  lhsBatch := []
  rhsBatch := []
  wf := dot_S8x2048x8_S2048x8_S8x2048x2048_2_1_01_0_n_n_wf
def dot_S8x2048x2048_S512x2048_S8x2048x512_2_1_01_0_n_n : DotDims S8x2048x2048 S512x2048 S8x2048x512 where
  lhsContracting := [2]
  rhsContracting := [1]
  lhsNonContracting := [0, 1]
  rhsNonContracting := [0]
  lhsBatch := []
  rhsBatch := []
  wf := dot_S8x2048x2048_S512x2048_S8x2048x512_2_1_01_0_n_n_wf

class Facts : Prop extends Facts₀ where

variable [Facts]
-- ==== Proof.LibScratchReadBack.lean ====
/-
  A buffer read back whole after several whole-buffer stores holds the LAST store's value.

  The symbolic run of a kernel body records a buffer's contents as a list of pieces, the last store first, and a
  later load of the buffer as a read of that list through the load's rectangle. When the first piece of the list
  is a store through the whole buffer (the unit-stride rectangle of the buffer's own sizes at offset zero), and
  the load is through that same rectangle, the load reads that piece's value, whatever the earlier stores were.
  This is what an accumulator kept in scratch memory needs: zeroed, then updated several times, each update
  reading the value the update before it left.

  The library has the one-piece case (a buffer zeroed once and read back); this is the case of any number of
  earlier pieces.
-/
import Idealize.ShloMosaic.Lib.Pipeline.Value

noncomputable section

namespace Idealize.ShloMosaic.View

variable {Val : EltTy → Type} {S : Shape} {e : EltTy}

/-- A load through the whole-shape rectangle at zero offsets, of contents whose most recent store went through that
    rectangle with value `w`, reads `w` — however many stores `L` came before it. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (fun y => ⟨_, List.mem_cons_self, mem_set_unit_zero h inb y⟩),
    canon_cons_unit_zero h, ld_unit_zero h]

end Idealize.ShloMosaic.View

end
-- ==== Proof.Body.lean ====
/-
  What one run of the kernel body leaves in its output block, as ONE term of the five input blocks.

  The body keeps an accumulator in scratch memory: it stores zero there, then for each half of the hidden units
  (columns 0 … 1023 and 1024 … 2047 of the weight blocks) reads the accumulator back and stores it again with that
  half's product added, and finally reads it once more, adds the output bias row and stores the block. Each
  read-back sees the store just before it, so the chain collapses to nested applications of the body's own
  arithmetic (its payloads) to the input blocks and to unit-stride slices of the weight blocks. Nothing here depends
  on what the float operations mean: the statement holds at every instance.
-/
import proofs.«126652_j65481071399183_2_alg».proof.Proof.Gen.KernelIdeal.Frame
import proofs.«126652_j65481071399183_2_alg».proof.Proof.LibScratchReadBack
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The scratch accumulator after the first half: zero plus the first half's product. -/
def accLo (x0 : Vec F S1x1024x8 .f32) (x1 : Vec F S8x2048 .bf16) (x2 : Vec F S1x2048 .f32) (x3 : Vec F S2048x512 .bf16) :
    FVec F S1024x512 .f32 :=
  k0_pay5 x0 (View.ld x1 (Rect.unit ![0, 0] ![8, 1024] Facts₀.inb_S8x2048_S8x1024_0_0))
    (View.ld x2 (Rect.unit ![0, 0] ![1, 1024] Facts₀.inb_S1x2048_S1x1024_0_0))
    (View.ld x3 (Rect.unit ![0, 0] ![1024, 512] Facts₀.inb_S2048x512_S1024x512_0_0)) k0_pay4

/-- The scratch accumulator after the second half. -/
def accHi (x0 : Vec F S1x1024x8 .f32) (x1 : Vec F S8x2048 .bf16) (x2 : Vec F S1x2048 .f32) (x3 : Vec F S2048x512 .bf16) :
    FVec F S1024x512 .f32 :=
  k0_pay1 (k0_pay6 x0 (View.ld x1 (Rect.unit ![0, 1024] ![8, 1024] Facts₀.inb_S8x2048_S8x1024_0_1024)))
    (k0_pay7 (View.ld x2 (Rect.unit ![0, 1024] ![1, 1024] Facts₀.inb_S1x2048_S1x1024_0_1024)))
    (View.ld x3 (Rect.unit ![1024, 0] ![1024, 512] Facts₀.inb_S2048x512_S1024x512_1024_0))
    (accLo x0 x1 x2 x3)

/-- The output block: the accumulator plus the bias row, as a [1, 1024, 512] block. -/
def blockOut (x0 : Vec F S1x1024x8 .f32) (x1 : Vec F S8x2048 .bf16) (x2 : Vec F S1x2048 .f32) (x3 : Vec F S2048x512 .bf16)
    (x4 : Vec F S1x512 .f32) : FVec F S1x1024x512 .f32 :=
  k0_pay2 (accHi x0 x1 x2 x3) x4

/-- What the body's run leaves in the output's staging buffer is `blockOut` of the input blocks, on any staging memrefs. -/
theorem out_eq (c : Dev nD) (i : grid0.Coords) (arg2 : Memref sig .tc .vmem S1x1024x8 .f32) (harg2 : arg2.IsWhole) (arg3 : Memref sig .tc .vmem S8x2048 .bf16) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .f32) (harg8 : arg8.IsWhole)
    (x0 : Vec F S1x1024x8 .f32) (x1 : Vec F S8x2048 .bf16) (x2 : Vec F S1x2048 .f32) (x3 : Vec F S2048x512 .bf16) (x4 : Vec F S1x512 .f32) :
    out0_A_5 c i arg2 harg2 arg3 harg3 arg4 harg4 arg5 harg5 arg6 harg6 arg7 harg7 arg8 harg8 x0 x1 x2 x3 x4 = blockOut x0 x1 x2 x3 x4 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero zero3]
  simp only [View.readCov_cons_unit_zero (S := S1024x512) _ zero2, View.readAt_eq_ld, harg2.read_unread, harg3.read_unread,
    harg4.read_unread, harg5.read_unread, harg6.read_unread,
    View.ld_unit_zero (S := S1x1024x8) zero3, View.ld_unit_zero (S := S1x512) zero2]
  rfl

end Cert.KernelIdeal.Body

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Spec.lean ====
/-
  The value both programs compute, as one function of the six argument arrays, index by index on the extended reals.

  With x : [8, 2048, 512], θ : [8], W1 : [2048, 8], b1 : [2048], W2 : [512, 2048], b2 : [512]:

      hidden b s f = max (∑ q < 8, (cos x[b, s, q] · cos θ[q]) · W1[f, q] + b1[f]) 0        (f < 2048)
      out  (b, s, e) = ∑ f < 2048, hidden b s f · W2[e, f] + b2[e]

  Only the first eight columns of x are read. The module also states the one law about sums that the comparison
  needs: a sum over 2048 hidden units is the sum over the first 1024 of them, started from zero, plus the sum over
  the last 1024. It holds in any commutative additive monoid, so on the extended reals it needs no finiteness.
-/
import Idealize.ShloMosaic.PureOps.Ideal
import Idealize.ShloMosaic.Lib.ValueIdx
import Mathlib.Algebra.BigOperators.Fin

noncomputable section

namespace Cert.FeedForward

open Idealize.ShloMosaic Idealize.ShloMosaic.ValueIdx

/-- Feature q < 8 as a column of x, whose rows have 512 entries. -/
abbrev col (q : Fin 8) : Fin 512 := ⟨q.val, Nat.lt_of_lt_of_le q.isLt (by decide)⟩

/-- Hidden unit k of the first half (k < 1024) as a hidden unit of all 2048. -/
abbrev lo (k : Fin 1024) : Fin 2048 := ⟨k.val, Nat.lt_of_lt_of_le k.isLt (by decide)⟩

/-- Hidden unit k of the second half as a hidden unit of all 2048: unit 1024 + k. -/
abbrev hi (k : Fin 1024) : Fin 2048 := ⟨1024 + k.val, Nat.add_lt_add_left k.isLt 1024⟩

/-- The hidden activation of row (b, s) at unit f: the rectified affine image of the eight products
    cos x[b, s, q] · cos θ[q]. -/
def hiddenAct (x : (⟨3, ![8, 2048, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 2048) (f : Fin 2048) : EReal :=
  max (∑ q : Fin 8, (Ideal.cos (x (ix3 b s (col q))) * Ideal.cos (θ (ix1 q))) * W1 (ix2 f q) + b1 (ix1 f)) 0

/-- The output at (b, s, e): the hidden row against row e of W2, plus b2[e]. -/
def out (x : (⟨3, ![8, 2048, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal) :
    (⟨3, ![8, 2048, 512]⟩ : Shape).Idx → EReal :=
  fun i => ∑ f : Fin 2048, hiddenAct x θ W1 b1 (i 0) (i 1) f * W2 (ix2 (i 2) f) + b2 (ix1 (i 2))

/-- A sum over the 2048 hidden units is zero plus the sum over units 0 … 1023, plus the sum over units
    1024 … 2047. -/
theorem sum_two_halves {M : Type*} [AddCommMonoid M] (g : Fin 2048 → M) :
    ∑ f : Fin 2048, g f = (0 + ∑ k : Fin 1024, g (lo k)) + ∑ k : Fin 1024, g (hi k) := by
  rw [zero_add]
  exact Fin.sum_univ_add (a := 1024) (b := 1024) g

end Cert.FeedForward

end
-- ==== Proof.BodyValue.lean ====
/-
  The body's output block, entry by entry, on the extended reals.

  For input blocks x0 : [1, 1024, 8] (rows of x), x1 : [8, 2048] (the folded first-layer weights, transposed),
  x2 : [1, 2048] (the first bias as a row), x3 : [2048, 512] (the second-layer weights, transposed) and
  x4 : [1, 512] (the second bias as a row), entry (r, e) of the block the body stores is

      ∑ f < 2048, max (∑ q < 8, cos x0[0, r, q] · x1[q, f] + x2[0, f]) 0 · x3[f, e]  +  x4[0, e].

  The body computes the sum over f in two halves into an accumulator started at zero; `sum_two_halves` puts the
  halves together. When the blocks hold what the launch puts in them — x1[q, f] = W1[f, q] · cos θ[q] and so on —
  this is the specification at the block's place in the array, because (a · c) · w = a · (w · c) on the extended
  reals: multiplication there is commutative and associative at every value, the infinities included.
-/
import proofs.«126652_j65481071399183_2_alg».proof.Proof.Body
import proofs.«126652_j65481071399183_2_alg».proof.Proof.LibPlainMatmul
import proofs.«126652_j65481071399183_2_alg».proof.Proof.Spec
import Idealize.ShloMosaic.Lib.ValueLayout

noncomputable section

open Idealize.ShloMosaic Idealize.ShloMosaic.TcCoe Idealize.SL.Sem

namespace Cert.KernelIdeal.BodyValue

open Cert.KernelIdeal Cert.KernelIdeal.Gen Cert.KernelIdeal.Body Idealize.ShloMosaic.ValueIdx Cert.FeedForward

/-! ## The body's arithmetic, one payload at a time -/

/-- The cosines of the x block, as a [1024, 8] matrix. -/
theorem cosBlock_apply (x0 : Vec Ideal S1x1024x8 .f32) (r : Fin 1024) (q : Fin 8) :
    k0_pay3 (F := Ideal) x0 (ix2 r q) = Ideal.cos (x0 (ix3 (0 : Fin 1) r q)) := by
  unfold k0_pay3
  exact congrArg Ideal.cos (shapeCast_1ab_ab_apply x0 _ r q)

/-- The zero block the accumulator starts from. -/
theorem zeroBlock_apply (r : Fin 1024) (e : Fin 512) : k0_pay4 (F := Ideal) (ix2 r e) = 0 := by
  unfold k0_pay4
  exact (congrFun (shapeCast_self _ _) (ix2 r e)).trans Ideal.ofBits_zero_f32

/-- A half's first product: rows of cosines against a [8, 1024] block of first-layer weights. -/
theorem firstProduct_apply (x0 : Vec Ideal S1x1024x8 .f32) (w : Vec Ideal S8x1024 .bf16) (r k : Fin 1024) :
    k0_pay6 (F := Ideal) x0 w (ix2 r k) = ∑ q : Fin 8, Ideal.cos (x0 (ix3 (0 : Fin 1) r q)) * w (ix2 q k) := by
  unfold k0_pay6
  refine (matmul_plain_zero_apply _ rfl none (k0_pay3 (F := Ideal) x0) (shapeCast S8x1024 w Facts₀.shapeCasts_S8x1024_S8x1024) r k).trans ?_
  refine Finset.sum_congr rfl fun q _ => ?_
  rw [cosBlock_apply, shapeCast_self]

/-- A half's bias row spread over the 1024 rows. -/
theorem biasRows_apply (bb : Vec Ideal S1x1024 .f32) (r k : Fin 1024) :
    k0_pay7 (F := Ideal) bb (ix2 r k) = bb (ix2 (0 : Fin 1) k) := by
  unfold k0_pay7
  exact (broadcastTo_1b_ab_apply _ _ r k).trans (congrFun (shapeCast_self _ _) _)

/-- The second half's update of the accumulator: the rectified pre-activations against a [1024, 512] block of
    second-layer weights, added to what the accumulator held. -/
theorem secondUpdate_apply (pre bias : FVec Ideal S1024x1024 .f32) (w2 : Vec Ideal S1024x512 .bf16) (acc : Vec Ideal S1024x512 .f32)
    (r : Fin 1024) (e : Fin 512) :
    k0_pay1 (F := Ideal) pre bias w2 acc (ix2 r e)
      = acc (ix2 r e) + ∑ k : Fin 1024, max (pre (ix2 r k) + bias (ix2 r k)) 0 * w2 (ix2 k e) := by
  unfold k0_pay1
  refine (congrFun (shapeCast_self _ _) (ix2 r e)).trans ?_
  refine congrArg (acc (ix2 r e) + ·) ?_
  refine (matmul_plain_zero_apply _ rfl none _ (shapeCast S1024x512 w2 Facts₀.shapeCasts_S1024x512_S1024x512) r e).trans ?_
  refine Finset.sum_congr rfl fun k _ => ?_
  rw [shapeCast_self]
  show max (pre (ix2 r k) + bias (ix2 r k)) (Ideal.ofBits .f32 0x00000000#32) * w2 (ix2 k e) = _
  rw [Ideal.ofBits_zero_f32]

/-- The first half's update: the same with the pre-activations computed in place. -/
theorem firstUpdate_apply (x0 : Vec Ideal S1x1024x8 .f32) (w : Vec Ideal S8x1024 .bf16) (bb : Vec Ideal S1x1024 .f32)
    (w2 : Vec Ideal S1024x512 .bf16) (acc : Vec Ideal S1024x512 .f32) (r : Fin 1024) (e : Fin 512) :
    k0_pay5 (F := Ideal) x0 w bb w2 acc (ix2 r e)
      = acc (ix2 r e) + ∑ k : Fin 1024,
          max (∑ q : Fin 8, Ideal.cos (x0 (ix3 (0 : Fin 1) r q)) * w (ix2 q k) + bb (ix2 (0 : Fin 1) k)) 0 * w2 (ix2 k e) :=
  (secondUpdate_apply (k0_pay6 (F := Ideal) x0 w) (k0_pay7 (F := Ideal) bb) w2 acc r e).trans (by
    simp only [firstProduct_apply, biasRows_apply])

/-- The last step: the accumulator plus the output bias row, as a [1, 1024, 512] block. -/
theorem addBias_apply (acc : Vec Ideal S1024x512 .f32) (b2 : Vec Ideal S1x512 .f32) (u : Fin 1) (r : Fin 1024) (e : Fin 512) :
    k0_pay2 (F := Ideal) acc b2 (ix3 u r e) = acc (ix2 r e) + b2 (ix2 (0 : Fin 1) e) := by
  unfold k0_pay2
  refine (shapeCast_ab_1ab_apply _ _ u r e).trans ?_
  exact congrArg (acc (ix2 r e) + ·) ((broadcastTo_1b_ab_apply _ _ r e).trans (congrFun (shapeCast_self _ _) _))

/-! ## The halves of the weight blocks -/

theorem w1_lo (x1 : Vec Ideal S8x2048 .bf16) (q : Fin 8) (k : Fin 1024) :
    View.ld x1 (Rect.unit ![0, 0] ![8, 1024] Facts₀.inb_S8x2048_S8x1024_0_0) (ix2 q k) = x1 (ix2 q (lo k)) :=
  congrArg x1 (funext fun a => Fin.ext (by
    match a with
    | ⟨0, _⟩ => show 0 + 1 * q.val = q.val; omega
    | ⟨1, _⟩ => show 0 + 1 * k.val = k.val; omega))

theorem w1_hi (x1 : Vec Ideal S8x2048 .bf16) (q : Fin 8) (k : Fin 1024) :
    View.ld x1 (Rect.unit ![0, 1024] ![8, 1024] Facts₀.inb_S8x2048_S8x1024_0_1024) (ix2 q k) = x1 (ix2 q (hi k)) :=
  congrArg x1 (funext fun a => Fin.ext (by
    match a with
    | ⟨0, _⟩ => show 0 + 1 * q.val = q.val; omega
    | ⟨1, _⟩ => show 1024 + 1 * k.val = 1024 + k.val; omega))

theorem b1_lo (x2 : Vec Ideal S1x2048 .f32) (u : Fin 1) (k : Fin 1024) :
    View.ld x2 (Rect.unit ![0, 0] ![1, 1024] Facts₀.inb_S1x2048_S1x1024_0_0) (ix2 u k) = x2 (ix2 (0 : Fin 1) (lo k)) :=
  congrArg x2 (funext fun a => Fin.ext (by
    match a with
    | ⟨0, _⟩ => show 0 + 1 * u.val = 0; omega
    | ⟨1, _⟩ => show 0 + 1 * k.val = k.val; omega))

theorem b1_hi (x2 : Vec Ideal S1x2048 .f32) (u : Fin 1) (k : Fin 1024) :
    View.ld x2 (Rect.unit ![0, 1024] ![1, 1024] Facts₀.inb_S1x2048_S1x1024_0_1024) (ix2 u k) = x2 (ix2 (0 : Fin 1) (hi k)) :=
  congrArg x2 (funext fun a => Fin.ext (by
    match a with
    | ⟨0, _⟩ => show 0 + 1 * u.val = 0; omega
    | ⟨1, _⟩ => show 1024 + 1 * k.val = 1024 + k.val; omega))

theorem w2_lo (x3 : Vec Ideal S2048x512 .bf16) (k : Fin 1024) (e : Fin 512) :
    View.ld x3 (Rect.unit ![0, 0] ![1024, 512] Facts₀.inb_S2048x512_S1024x512_0_0) (ix2 k e) = x3 (ix2 (lo k) e) :=
  congrArg x3 (funext fun a => Fin.ext (by
    match a with
    | ⟨0, _⟩ => show 0 + 1 * k.val = k.val; omega
    | ⟨1, _⟩ => show 0 + 1 * e.val = e.val; omega))

theorem w2_hi (x3 : Vec Ideal S2048x512 .bf16) (k : Fin 1024) (e : Fin 512) :
    View.ld x3 (Rect.unit ![1024, 0] ![1024, 512] Facts₀.inb_S2048x512_S1024x512_1024_0) (ix2 k e) = x3 (ix2 (hi k) e) :=
  congrArg x3 (funext fun a => Fin.ext (by
    match a with
    | ⟨0, _⟩ => show 1024 + 1 * k.val = 1024 + k.val; omega
    | ⟨1, _⟩ => show 0 + 1 * e.val = e.val; omega))

/-! ## The block, entry by entry -/

/-- Hidden unit f of row r of the block: the rectified pre-activation. -/
def blockHidden (x0 : Vec Ideal S1x1024x8 .f32) (x1 : Vec Ideal S8x2048 .bf16) (x2 : Vec Ideal S1x2048 .f32)
    (r : Fin 1024) (f : Fin 2048) : EReal :=
  max (∑ q : Fin 8, Ideal.cos (x0 (ix3 (0 : Fin 1) r q)) * x1 (ix2 q f) + x2 (ix2 (0 : Fin 1) f)) 0

/-- Entry (r, e) of the stored block: all 2048 hidden units of row r against column e of the second-layer block, plus
    the bias. The two halves the body accumulates are the two halves of this one sum. -/
theorem blockOut_apply (x0 : Vec Ideal S1x1024x8 .f32) (x1 : Vec Ideal S8x2048 .bf16) (x2 : Vec Ideal S1x2048 .f32)
    (x3 : Vec Ideal S2048x512 .bf16) (x4 : Vec Ideal S1x512 .f32) (u : Fin 1) (r : Fin 1024) (e : Fin 512) :
    blockOut (F := Ideal) x0 x1 x2 x3 x4 (ix3 u r e)
      = ∑ f : Fin 2048, blockHidden x0 x1 x2 r f * x3 (ix2 f e) + x4 (ix2 (0 : Fin 1) e) := by
  unfold blockOut
  rw [addBias_apply]
  unfold accHi
  rw [secondUpdate_apply]
  unfold accLo
  rw [firstUpdate_apply, zeroBlock_apply]
  simp only [firstProduct_apply, biasRows_apply]
  rw [sum_two_halves (fun f => blockHidden x0 x1 x2 r f * x3 (ix2 f e))]
  unfold blockHidden
  refine congrArg (· + x4 (ix2 (0 : Fin 1) e)) ?_
  refine congrArg₂ (· + ·) (congrArg (0 + ·) (Finset.sum_congr rfl fun k _ => ?_)) (Finset.sum_congr rfl fun k _ => ?_)
  · rw [w2_lo, b1_lo]
    refine congrArg (fun s => max (s + x2 (ix2 (0 : Fin 1) (lo k))) 0 * x3 (ix2 (lo k) e)) ?_
    exact Finset.sum_congr rfl fun q _ => by rw [w1_lo]
  · rw [w2_hi, b1_hi]
    refine congrArg (fun s => max (s + x2 (ix2 (0 : Fin 1) (hi k))) 0 * x3 (ix2 (hi k) e)) ?_
    exact Finset.sum_congr rfl fun q _ => by rw [w1_hi]

/-! ## The block is the specification at its place in the array -/

/-- If the five blocks hold, entry by entry, what the launch puts in them for batch b and row block sb — rows
    1024·sb … 1024·sb + 1023 of the first eight columns of x[b]; W1 transposed with cos θ folded in; b1 and b2 as
    rows; W2 transposed — then entry (r, e) of the stored block is the specification at (b, 1024·sb + r, e). The
    only algebra: cos x · (W1 · cos θ) = (cos x · cos θ) · W1. -/
theorem blockOut_eq_out (x0 : Vec Ideal S1x1024x8 .f32) (x1 : Vec Ideal S8x2048 .bf16) (x2 : Vec Ideal S1x2048 .f32)
    (x3 : Vec Ideal S2048x512 .bf16) (x4 : Vec Ideal S1x512 .f32)
    (a0 : (⟨3, ![8, 2048, 512]⟩ : Shape).Idx → EReal) (a1 : (⟨1, ![8]⟩ : Shape).Idx → EReal)
    (a2 : (⟨2, ![2048, 8]⟩ : Shape).Idx → EReal) (a3 : (⟨1, ![2048]⟩ : Shape).Idx → EReal)
    (a4 : (⟨2, ![512, 2048]⟩ : Shape).Idx → EReal) (a5 : (⟨1, ![512]⟩ : Shape).Idx → EReal)
    (b : Fin 8) (row : Fin 1024 → Fin 2048)
    (h0 : ∀ (r : Fin 1024) (q : Fin 8), x0 (ix3 (0 : Fin 1) r q) = a0 (ix3 b (row r) (col q)))
    (h1 : ∀ (q : Fin 8) (f : Fin 2048), x1 (ix2 q f) = a2 (ix2 f q) * Ideal.cos (a1 (ix1 q)))
    (h2 : ∀ f : Fin 2048, x2 (ix2 (0 : Fin 1) f) = a3 (ix1 f))
    (h3 : ∀ (f : Fin 2048) (e : Fin 512), x3 (ix2 f e) = a4 (ix2 e f))
    (h4 : ∀ e : Fin 512, x4 (ix2 (0 : Fin 1) e) = a5 (ix1 e))
    (u : Fin 1) (r : Fin 1024) (e : Fin 512) :
    blockOut (F := Ideal) x0 x1 x2 x3 x4 (ix3 u r e) = out a0 a1 a2 a3 a4 a5 (ix3 b (row r) e) := by
  rw [blockOut_apply]
  unfold out blockHidden hiddenAct
  simp only [h0, h1, h2, h3, h4]
  congr 1
  refine Finset.sum_congr rfl fun f _ => ?_
  congr 3
  refine Finset.sum_congr rfl fun q _ => ?_
  rw [mul_comm (a2 (ix2 f q)), mul_assoc]

end Cert.KernelIdeal.BodyValue

end
-- ==== Proof.HostPrefix.lean ====
/-
  What the five operands of the pallas_call hold when the region is entered, entry by entry.

  Before the call the host program slices the first eight columns out of x, multiplies W1 by the row of cosines
  cos θ spread over its 2048 rows and transposes the product, transposes W2, and reshapes the two bias vectors into
  rows (the two changes of float format in between are the identity on the extended reals). So, with the arrays as
  launched:

      operand 0 [8, 2048, 8]   at (b, s, q)  is  x[b, s, q]
      operand 1 [8, 2048]      at (q, f)     is  W1[f, q] · cos θ[q]
      operand 2 [1, 2048]      at (0, f)     is  b1[f]
      operand 3 [2048, 512]    at (f, e)     is  W2[e, f]
      operand 4 [1, 512]       at (0, e)     is  b2[e]
-/
import proofs.«126652_j65481071399183_2_alg».proof.Proof.Gen.KernelIdeal.Frame
import proofs.«126652_j65481071399183_2_alg».proof.Proof.Spec
import Idealize.ShloMosaic.Lib.ValueLayout
import Idealize.ShloMosaic.Lib.StableHlo.Run

noncomputable section

open Idealize.ShloMosaic Idealize.ShloMosaic.TcCoe Idealize.SL.Sem Idealize.ShloMosaic.StableHlo

namespace Cert.KernelIdeal.HostPrefix

open Cert.KernelIdeal Cert.KernelIdeal.Gen Idealize.ShloMosaic.ValueIdx Cert.FeedForward

variable (m : (ℓ : Loc nD τ sig) → Buf (Elt Ideal) ℓ)

/-! ## The six arrays as launched on core c, as functions of an index into the extended reals -/

abbrev a0 (c : Dev nD) : S8x2048x512.Idx → EReal := m ((c : Thread nD τ).loc main_arg0)
abbrev a1 (c : Dev nD) : S8.Idx → EReal := m ((c : Thread nD τ).loc main_arg1)
abbrev a2 (c : Dev nD) : S2048x8.Idx → EReal := m ((c : Thread nD τ).loc main_arg2)
abbrev a3 (c : Dev nD) : S2048.Idx → EReal := m ((c : Thread nD τ).loc main_arg3)
abbrev a4 (c : Dev nD) : S512x2048.Idx → EReal := m ((c : Thread nD τ).loc main_arg4)
abbrev a5 (c : Dev nD) : S512.Idx → EReal := m ((c : Thread nD τ).loc main_arg5)

/-- The five operand arrays at region entry. -/
abbrev xq (c : Dev nD) : S8x2048x8.Idx → EReal := V m c main_v0
abbrev w1t (c : Dev nD) : S8x2048.Idx → EReal := V m c main_v6
abbrev w2t (c : Dev nD) : S2048x512.Idx → EReal := V m c main_v8
abbrev b1row (c : Dev nD) : S1x2048.Idx → EReal := V m c main_v9
abbrev b2row (c : Dev nD) : S1x512.Idx → EReal := V m c main_v10

/-! ## The operand arrays as terms of the arguments -/

theorem xq_eq (c : Dev nD) : xq m c
    = extractStridedSlice S8x2048x8 ![0, 0, 0] (a0 m c) Facts₀.slices_S8x2048x512_S8x2048x8_0_0_0 := by
  dsimp only [xq, a0, Gen.V, Gen.hostOps0]; after_results <;> rfl

/-- W1 with the row of cosines cos θ, spread over its 2048 rows, multiplied in. -/
abbrev foldedW1 (c : Dev nD) : S2048x8.Idx → EReal :=
  mulf (F := Ideal) (φ := .f32) (a2 m c)
    (broadcastInDim S2048x8 ![0, 1] Facts₀.bcast_S1x8_S2048x8_0_1
      (broadcastInDim S1x8 ![1] Facts₀.bcast_S8_S1x8_1 (Host.cos (F := Ideal) (φ := .f32) (a1 m c))))

theorem w1t_eq (c : Dev nD) : w1t m c
    = truncf (F := Ideal) (φ := .f32) .bf16 (transpose S8x2048 [1, 0] (foldedW1 m c)
        Facts₀.transposes_S2048x8_S8x2048_1_0) Facts₀.bitsLt_bf16_f32 := by
  dsimp only [w1t, foldedW1, a1, a2, Gen.V, Gen.hostOps0]; after_results <;> rfl

theorem w2t_eq (c : Dev nD) : w2t m c
    = truncf (F := Ideal) (φ := .f32) .bf16 (transpose S2048x512 [1, 0] (a4 m c)
        Facts₀.transposes_S512x2048_S2048x512_1_0) Facts₀.bitsLt_bf16_f32 := by
  dsimp only [w2t, a4, Gen.V, Gen.hostOps0]; after_results <;> rfl

theorem b1row_eq (c : Dev nD) : b1row m c = shapeCast S1x2048 (a3 m c) Facts₀.shapeCasts_S2048_S1x2048 := by
  dsimp only [b1row, a3, Gen.V, Gen.hostOps0]; after_results <;> rfl

theorem b2row_eq (c : Dev nD) : b2row m c = shapeCast S1x512 (a5 m c) Facts₀.shapeCasts_S512_S1x512 := by
  dsimp only [b2row, a5, Gen.V, Gen.hostOps0]; after_results <;> rfl

/-! ## … read at an entry -/

/-- The sliced x at (b, s, q) is x at (b, s, q), column q being among the first eight. -/
theorem xq_apply (c : Dev nD) (b : Fin 8) (s : Fin 2048) (q : Fin 8) :
    xq m c (ix3 b s q) = a0 m c (ix3 b s (col q)) := by
  rw [xq_eq]
  exact extractStridedSlice_apply ![0, 0, 0] _ _ (ix3 b s q) (ix3 b s (col q)) (fun a => by
    match a with
    | ⟨0, _⟩ => show b.val = 0 + b.val; omega
    | ⟨1, _⟩ => show s.val = 0 + s.val; omega
    | ⟨2, _⟩ => show q.val = 0 + q.val; omega)

/-- The row of cosines spread over W1's rows, at (f, q), is cos θ[q]. -/
theorem cosRows_apply (θ : S8.Idx → EReal) (f : Fin 2048) (q : Fin 8) :
    broadcastInDim S2048x8 ![0, 1] Facts₀.bcast_S1x8_S2048x8_0_1
        (broadcastInDim S1x8 ![1] Facts₀.bcast_S8_S1x8_1 (Host.cos (F := Ideal) (φ := .f32) θ)) (ix2 f q)
      = Ideal.cos (θ (ix1 q)) := by
  refine (broadcastInDim_apply _ Facts₀.bcast_S1x8_S2048x8_0_1
    (broadcastInDim S1x8 ![1] Facts₀.bcast_S8_S1x8_1 (Host.cos (F := Ideal) (φ := .f32) θ)) (ix2 f q) (ix2 (0 : Fin 1) q) (fun a => by
    match a with
    | ⟨0, _⟩ => show 0 = if (1 : Nat) = 1 then 0 else f.val; rw [if_pos rfl]
    | ⟨1, _⟩ => show q.val = if (8 : Nat) = 1 then 0 else q.val; rw [if_neg (by decide)])).trans ?_
  exact broadcastInDim_apply _ Facts₀.bcast_S8_S1x8_1 (Host.cos (F := Ideal) (φ := .f32) θ) (ix2 (0 : Fin 1) q) (ix1 q) (fun a => by
    match a with
    | ⟨0, _⟩ => show q.val = if (8 : Nat) = 1 then 0 else q.val; rw [if_neg (by decide)])

/-- The folded, transposed first-layer weights at (q, f) are W1[f, q] · cos θ[q]. -/
theorem w1t_apply (c : Dev nD) (q : Fin 8) (f : Fin 2048) :
    w1t m c (ix2 q f) = a2 m c (ix2 f q) * Ideal.cos (a1 m c (ix1 q)) := by
  rw [w1t_eq]
  exact (transpose_ix2_apply (foldedW1 m c) Facts₀.transposes_S2048x8_S8x2048_1_0 q f).trans
    (congrArg (a2 m c (ix2 f q) * ·) (cosRows_apply (a1 m c) f q))

/-- The transposed second-layer weights at (f, e) are W2[e, f]. -/
theorem w2t_apply (c : Dev nD) (f : Fin 2048) (e : Fin 512) :
    w2t m c (ix2 f e) = a4 m c (ix2 e f) := by
  rw [w2t_eq]
  exact transpose_ix2_apply (a4 m c) Facts₀.transposes_S512x2048_S2048x512_1_0 f e

/-- The first bias as a row, at (0, f), is b1[f]. -/
theorem b1row_apply (c : Dev nD) (u : Fin 1) (f : Fin 2048) :
    b1row m c (ix2 u f) = a3 m c (ix1 f) := by
  rw [b1row_eq]
  exact shapeCast_a_1a_apply _ Facts₀.shapeCasts_S2048_S1x2048 u f

/-- The second bias as a row, at (0, e), is b2[e]. -/
theorem b2row_apply (c : Dev nD) (u : Fin 1) (e : Fin 512) :
    b2row m c (ix2 u e) = a5 m c (ix1 e) := by
  rw [b2row_eq]
  exact shapeCast_a_1a_apply _ Facts₀.shapeCasts_S512_S1x512 u e

end Cert.KernelIdeal.HostPrefix

end
-- ==== Proof.KernelValue.lean ====
/-
  The kernel's result array is the specification of the launched arrays.

  The grid has 8 × 2 points; point (b, sb) reads rows 1024·sb … 1024·sb + 1023 of batch b of the sliced x, reads
  the four weight and bias operands whole, and writes rows 1024·sb … of batch b of the result. The blocks the
  sixteen points write tile the result array, and what each point writes is the specification restricted to its
  block (the body's value at the blocks the launch hands it), so the array ends holding the specification.
-/
import proofs.«126652_j65481071399183_2_alg».proof.Proof.Gen.KernelIdeal.Value
import proofs.«126652_j65481071399183_2_alg».proof.Proof.BodyValue
import proofs.«126652_j65481071399183_2_alg».proof.Proof.HostPrefix

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Body Cert.KernelIdeal.BodyValue Cert.KernelIdeal.HostPrefix
open Idealize.ShloMosaic.ValueIdx Cert.FeedForward

variable (m : (ℓ : Loc nD τ sig) → Buf (Elt Ideal) ℓ) (ρ : Dev nD → PrngReg)

/-- The specification of the arrays as launched on core c. -/
abbrev spec (c : Dev nD) : S8x2048x512.Idx → EReal :=
  out (a0 m c) (a1 m c) (a2 m c) (a3 m c) (a4 m c) (a5 m c)

/-- Row r of row block sb, as a row of the array: row 1024·sb + r. -/
def rowOf (sb : Fin 2) (r : Fin 1024) : Fin 2048 :=
  ⟨sb.val * 1024 + r.val, by have := sb.isLt; have := r.isLt; omega⟩

/-- The index maps over the sixteen points: the x block moves with the output block on the batch and row axes and
    stays at column block 0; the four other operands stay at block (0, 0); the output's block indices stay in range. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_5.index t (0 : Fin 3) ≤ 7 ∧ win0_5.index t (1 : Fin 3) ≤ 1
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, row block) is some point's output block. -/
theorem idx_onto : ∀ (q0 : Fin 8) (q1 : Fin 2), ∃ t : Fin cfg0.N, win0_5.index t = ![q0.val, q1.val, 0] :=
  (by decide +kernel : ∀ (q0 : Fin 8) (q1 : Fin 2), ∃ t : Fin grid0.N, win0_5.index t = ![q0.val, q1.val, 0])

/-- What point t writes back is block t of the specification. -/
theorem flushed_eq (c : Dev nD) (t : Fin cfg0.N) :
    (dats m 0 c).flushed 5 t = ((cfg0.win 5).blk t).view.read (Elt Ideal) (spec m c) := by
  rw [Value.flushed5_A, Body.out_eq]
  obtain ⟨e00, e01, e02, e52, e50, e51, e10, e11, e20, e21, e30, e31, e40, e41⟩ := idx_facts t
  obtain ⟨bt, hbt⟩ : ∃ bt : Fin 8, bt.val = win0_5.index t (0 : Fin 3) := ⟨⟨win0_5.index t (0 : Fin 3), by omega⟩, rfl⟩
  obtain ⟨st, hst⟩ : ∃ st : Fin 2, st.val = win0_5.index t (1 : Fin 3) := ⟨⟨win0_5.index t (1 : Fin 3), by omega⟩, rfl⟩
  funext j
  obtain ⟨u, r, e, rfl⟩ : ∃ (u : Fin 1) (r : Fin 1024) (e : Fin 512), j = ix3 u r e := ⟨j 0, j 1, j 2, eq_ix3 j⟩
  show blockOut (F := Ideal) (iblk m c 0 t) (iblk m c 1 t) (iblk m c 2 t) (iblk m c 3 t) (iblk m c 4 t) (ix3 u r e)
    = spec m c (((cfg0.win 5).blk t).view.emb (ix3 u r e))
  have hu : u.val = 0 := by omega
  refine (blockOut_eq_out (iblk m c 0 t) (iblk m c 1 t) (iblk m c 2 t) (iblk m c 3 t) (iblk m c 4 t)
    (a0 m c) (a1 m c) (a2 m c) (a3 m c) (a4 m c) (a5 m c) bt (rowOf st) ?_ ?_ ?_ ?_ ?_ u r e).trans ?_
  · intro r' q
    refine Eq.trans ?_ (xq_apply m c bt (rowOf st r') q)
    show xq m c (((cfg0.win 0).blk t).view.emb (ix3 (0 : Fin 1) r' q)) = xq m c (ix3 bt (rowOf st r') q)
    refine congrArg (xq m c) (funext fun a => Fin.ext ?_)
    match a with
    | ⟨0, _⟩ => show win0_0.index t (0 : Fin 3) * 1 + 1 * 0 = bt.val; omega
    | ⟨1, _⟩ => show win0_0.index t (1 : Fin 3) * 1024 + 1 * r'.val = st.val * 1024 + r'.val; omega
    | ⟨2, _⟩ => show win0_0.index t (2 : Fin 3) * 8 + 1 * q.val = q.val; omega
  · intro q f
    refine Eq.trans ?_ (w1t_apply m c q f)
    show w1t m c (((cfg0.win 1).blk t).view.emb (ix2 q f)) = w1t m c (ix2 q f)
    refine congrArg (w1t m c) (funext fun a => Fin.ext ?_)
    match a with
    | ⟨0, _⟩ => show win0_1.index t (0 : Fin 2) * 8 + 1 * q.val = q.val; omega
    | ⟨1, _⟩ => show win0_1.index t (1 : Fin 2) * 2048 + 1 * f.val = f.val; omega
  · intro f
    refine Eq.trans ?_ (b1row_apply m c (0 : Fin 1) f)
    show b1row m c (((cfg0.win 2).blk t).view.emb (ix2 (0 : Fin 1) f)) = b1row m c (ix2 (0 : Fin 1) f)
    refine congrArg (b1row m c) (funext fun a => Fin.ext ?_)
    match a with
    | ⟨0, _⟩ => show win0_2.index t (0 : Fin 2) * 1 + 1 * 0 = 0; omega
    | ⟨1, _⟩ => show win0_2.index t (1 : Fin 2) * 2048 + 1 * f.val = f.val; omega
  · intro f e'
    refine Eq.trans ?_ (w2t_apply m c f e')
    show w2t m c (((cfg0.win 3).blk t).view.emb (ix2 f e')) = w2t m c (ix2 f e')
    refine congrArg (w2t m c) (funext fun a => Fin.ext ?_)
    match a with
    | ⟨0, _⟩ => show win0_3.index t (0 : Fin 2) * 2048 + 1 * f.val = f.val; omega
    | ⟨1, _⟩ => show win0_3.index t (1 : Fin 2) * 512 + 1 * e'.val = e'.val; omega
  · intro e'
    refine Eq.trans ?_ (b2row_apply m c (0 : Fin 1) e')
    show b2row m c (((cfg0.win 4).blk t).view.emb (ix2 (0 : Fin 1) e')) = b2row m c (ix2 (0 : Fin 1) e')
    refine congrArg (b2row m c) (funext fun a => Fin.ext ?_)
    match a with
    | ⟨0, _⟩ => show win0_4.index t (0 : Fin 2) * 1 + 1 * 0 = 0; omega
    | ⟨1, _⟩ => show win0_4.index t (1 : Fin 2) * 512 + 1 * e'.val = e'.val; omega
  · refine congrArg (spec m c) (funext fun a => Fin.ext ?_)
    match a with
    | ⟨0, _⟩ => show bt.val = win0_5.index t (0 : Fin 3) * 1 + 1 * u.val; omega
    | ⟨1, _⟩ => show st.val * 1024 + r.val = win0_5.index t (1 : Fin 3) * 1024 + 1 * r.val; omega
    | ⟨2, _⟩ => show e.val = win0_5.index t (2 : Fin 3) * 512 + 1 * e.val; omega

/-- An index of the result array is in point t's block iff each coordinate is in the block's range on its axis. -/
theorem mem_blk (t : Fin cfg0.N) (i : S8x2048x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v11).slice (win0_5.rect t)).set ↔ _
  rw [View.set_slice_whole, Rect.mem_set_unit]
  exact Iff.rfl

/-- The sixteen blocks cover the result array: entry (b, s, e) is in the block of the point at (b, s / 1024). -/
theorem cover (i : S8x2048x512.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- The result array after the run is the specification. -/
theorem final (c : Dev nD) : (dats m 0 c).arrAt 5 cfg0.N = spec m c :=
  (dats m 0 c).arrAt_eq_of_cover 5 (spec m c) (fun t _ => flushed_eq m c t) cover

/-- The kernel's run, read: the result array at the specification of the launched arrays, the arguments unchanged. -/
theorem run : θ_run defs (onTc (τ := τ) (main (F := Ideal))) ⟨m, fun _ => 0, ρ⟩ fun r => ∀ c : Dev nD,
      r.2.mem ((c : Thread nD τ).loc main_v11) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefIsSpec.lean ====
/-
  The reference computes the specification: its last stage, read at an index (b, s, e), is
  ∑ f, max (∑ q, (cos x[b,s,q] · cos θ[q]) · W1[f,q] + b1[f]) 0 · W2[e,f] + b2[e].
  Each host operation is read at an index by its generated lemma; what is left is that the index functions those
  lemmas compose are the coordinates the specification names, and that the host's cosine, product, sum and maximum
  are the extended reals' own.
-/
import proofs.«126652_j65481071399183_2_alg».proof.Proof.Gen.ReferenceIdeal.Read
import proofs.«126652_j65481071399183_2_alg».proof.Proof.Spec

noncomputable section

namespace Cert.ReferenceIdeal.RefValue

open Cert.ReferenceIdeal Cert.ReferenceIdeal.Read Idealize.ShloMosaic Idealize.ShloMosaic.ValueIdx Cert.FeedForward

/-- The hidden stage (after the rectifier) at (b, s, f) is the specification's hidden activation. -/
theorem hidden_stage (x0 : (⟨S8x2048x512, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (b : Fin 8) (s : Fin 2048) (f : Fin 2048) :
    val_main_v10 (F := Ideal) x0 x1 x2 x3 (ix3 b s f) = hiddenAct x0 x1 x2 x3 b s f := by
  rw [val_main_v10_apply, val_main_v9_apply, val_main_v6_apply, val_main_v8_apply, val_main_v7_apply,
    val_main_call0_v0_apply, val_main_call0_cst_apply]
  unfold hiddenAct
  simp only [Ideal.maximumf_def, Ideal.addf_def, Ideal.ofBits_def, Ideal.ofBits_zero_f32]
  have hb : x3 (idx_main_v7 (idx_main_v8 (ix3 b s f))) = x3 (ix1 f) :=
    congrArg x3 (funext fun a => by match a with | ⟨0, _⟩ => rfl)
  rw [hb]
  congr 2
  refine Finset.sum_congr rfl fun q _ => ?_
  rw [val_main_v5_apply, val_main_v1_apply, val_main_v0_apply, val_main_v4_apply, val_main_v3_apply, val_main_v2_apply]
  simp only [Ideal.mulf_def, Ideal.hostUnary_cos_def]
  have hx : x0 (idx_main_v0 (lidx_main_v6 (ix3 b s f) q)) = x0 (ix3 b s (col q)) :=
    congrArg x0 (funext fun a => by match a with | ⟨0, _⟩ => rfl | ⟨1, _⟩ => rfl | ⟨2, _⟩ => rfl)
  have ht : x1 (idx_main_v3 (idx_main_v4 (lidx_main_v6 (ix3 b s f) q))) = x1 (ix1 q) :=
    congrArg x1 (funext fun a => by match a with | ⟨0, _⟩ => rfl)
  have hw : x2 (ridx_main_v6 (ix3 b s f) q) = x2 (ix2 f q) :=
    congrArg x2 (funext fun a => by match a with | ⟨0, _⟩ => rfl | ⟨1, _⟩ => rfl)
  rw [hx, ht, hw]

/-- The reference's result is the specification of its six arguments. -/
theorem result_eq (x0 : (⟨S8x2048x512, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S512x2048, .f32⟩ : BufTy).Contents (Elt Ideal)) (x5 : (⟨S512, .f32⟩ : BufTy).Contents (Elt Ideal)) :
    val_main_v14 (F := Ideal) x0 x1 x2 x3 x4 x5 = out x0 x1 x2 x3 x4 x5 := by
  funext i
  obtain ⟨b, s, e, rfl⟩ : ∃ (b : Fin 8) (s : Fin 2048) (e : Fin 512), i = ix3 b s e := ⟨i 0, i 1, i 2, eq_ix3 i⟩
  rw [val_main_v14_apply, val_main_v11_apply, val_main_v13_apply, val_main_v12_apply]
  unfold out
  simp only [Ideal.addf_def]
  have hb : x5 (idx_main_v12 (idx_main_v13 (ix3 b s e))) = x5 (ix1 e) :=
    congrArg x5 (funext fun a => by match a with | ⟨0, _⟩ => rfl)
  rw [hb]
  congr 1
  refine Finset.sum_congr rfl fun f _ => ?_
  have hl : lidx_main_v11 (ix3 b s e) f = ix3 b s f :=
    funext fun a => by match a with | ⟨0, _⟩ => rfl | ⟨1, _⟩ => rfl | ⟨2, _⟩ => rfl
  have hr : x4 (ridx_main_v11 (ix3 b s e) f) = x4 (ix2 e f) :=
    congrArg x4 (funext fun a => by match a with | ⟨0, _⟩ => rfl | ⟨1, _⟩ => rfl)
  rw [hl, hr, hidden_stage]

end Cert.ReferenceIdeal.RefValue

end
-- ==== Proof.lean ====
/-
  The certificate of a fused two-layer feed-forward kernel against its jnp reference.

  Both programs take x : [8, 2048, 512], θ : [8], W1 : [2048, 8], b1 : [2048], W2 : [512, 2048], b2 : [512] and return,
  at (b, s, e),

      ∑ f < 2048, max (∑ q < 8, (cos x[b, s, q] · cos θ[q]) · W1[f, q] + b1[f]) 0 · W2[e, f] + b2[e]

  (Proof/Spec.lean). The reference computes exactly this, one host operation after the other (Proof/RefIsSpec.lean).
  The kernel differs in three ways, none of which changes an extended real: it folds cos θ into W1 before the call,
  so its first product is cos x · (W1 · cos θ) — equal by commutativity and associativity of the product, which hold at
  every extended real; it sums over the hidden units in two halves of 1024 into an accumulator started at zero — equal
  by associativity of the sum; and it passes the weights and the hidden activations through a narrower float format,
  which is the identity here. No step uses that the inputs are finite, so the precondition is never opened.

  The kernel's side is read in four steps: what one run of the body leaves in its output block as a term of its input
  blocks (Proof/Body.lean), that term entry by entry (Proof/BodyValue.lean), what the host operations before the
  call put in the operands (Proof/HostPrefix.lean), and the sixteen blocks assembled into the result array
  (Proof/KernelValue.lean). The three frames are the generated ones; the ideal pass rewrote nothing, so the kernel's
  idealization is the kernel's own text and that conjunct is trivial.
-/
import proofs.«126652_j65481071399183_2_alg».proof.Defs
import proofs.«126652_j65481071399183_2_alg».proof.Proof.Gen.Kernel
import proofs.«126652_j65481071399183_2_alg».proof.Proof.Gen.Kernel.Skeleton
import proofs.«126652_j65481071399183_2_alg».proof.Proof.Gen.Kernel.Launch
import proofs.«126652_j65481071399183_2_alg».proof.Proof.Gen.Kernel.Points
import proofs.«126652_j65481071399183_2_alg».proof.Proof.Gen.Kernel.Frame
import proofs.«126652_j65481071399183_2_alg».proof.Proof.Gen.KernelIdeal
import proofs.«126652_j65481071399183_2_alg».proof.Proof.Gen.KernelIdeal.Skeleton
import proofs.«126652_j65481071399183_2_alg».proof.Proof.Gen.KernelIdeal.Launch
import proofs.«126652_j65481071399183_2_alg».proof.Proof.Gen.KernelIdeal.Points
import proofs.«126652_j65481071399183_2_alg».proof.Proof.Gen.KernelIdeal.Frame
import proofs.«126652_j65481071399183_2_alg».proof.Proof.Gen.ReferenceIdeal
import proofs.«126652_j65481071399183_2_alg».proof.Proof.Gen.Pre_finite_inputs
import proofs.«126652_j65481071399183_2_alg».proof.Proof.Gen.KernelIdeal.Value
import proofs.«126652_j65481071399183_2_alg».proof.Proof.Gen.ReferenceIdeal.Run
import proofs.«126652_j65481071399183_2_alg».proof.Proof.Gen.ReferenceIdeal.Read
import proofs.«126652_j65481071399183_2_alg».proof.Proof.KernelValue
import proofs.«126652_j65481071399183_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories that agree on the six arguments, the kernel's result array and the
    reference's both end at the specification of those arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
